-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  main_v18

def fn {F : FTy → Type} [FloatOps F] (main_arg0 : FVec F S128x3x224x224 .f32) (main_arg1 : FVec F S768x768 .f32) (main_arg2 : FVec F S768 .f32) (main_arg3 : FVec F S1x768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v13 main_v16
-- ==== Kernel.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S128x197x768 : Shape := ⟨3, ![128, 197, 768]⟩
abbrev S16x196x768 : Shape := ⟨3, ![16, 196, 768]⟩
abbrev S16x197x768 : Shape := ⟨3, ![16, 197, 768]⟩
abbrev S1x196x768 : Shape := ⟨3, ![1, 196, 768]⟩
abbrev S196x768 : Shape := ⟨2, ![196, 768]⟩
abbrev S197x768 : Shape := ⟨2, ![197, 768]⟩
abbrev S1x197x768 : Shape := ⟨3, ![1, 197, 768]⟩

abbrev nBuf : Space → Nat
  | .hbm => 9
  | .vmem => 7
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S128x3x14x16x14x16, .f32⟩
  | .hbm, ⟨5, _⟩ => ⟨S128x14x14x3x16x16, .f32⟩
  | .hbm, ⟨6, _⟩ => ⟨S128x196x768, .f32⟩
  | .hbm, ⟨7, _⟩ => ⟨S128x196x768, .bf16⟩
  | .hbm, ⟨8, _⟩ => ⟨S128x197x768, .f32⟩
  | .local _ .vmem, ⟨0, _⟩ => ⟨S16x196x768, .bf16⟩
  | .local _ .vmem, ⟨1, _⟩ => ⟨S16x196x768, .bf16⟩
  | .local _ .vmem, ⟨2, _⟩ => ⟨S768x768, .f32⟩
  | .local _ .vmem, ⟨3, _⟩ => ⟨S768, .f32⟩
  | .local _ .vmem, ⟨4, _⟩ => ⟨S1x768, .f32⟩
  | .local _ .vmem, ⟨5, _⟩ => ⟨S16x197x768, .f32⟩
  | .local _ .vmem, ⟨6, _⟩ => ⟨S16x197x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x196x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x197x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  inb_S1x768_S1x768_0_0 : ∀ a, (![0, 0] : Fin 2 → Nat) a + S1x768.size a ≤ S1x768.size a
  h_S1x768 : 0 < S1x768.numel
  inb_S16x196x768_S1x196x768_0_0_0 : ∀ a, (![0, 0, 0] : Fin 3 → Nat) a + S1x196x768.size a ≤ S16x196x768.size a
  h_S1x196x768 : 0 < S1x196x768.numel
  shapeCasts_S1x196x768_S196x768 : S1x196x768.ShapeCasts S196x768
  shapeCasts_S768_S1x768 : S768.ShapeCasts S1x768
  broadcasts_S1x768_S196x768 : S1x768.Broadcasts S196x768
  concatenates_S1x768_S196x768_S197x768_d0 : Shape.Concatenates [S1x768, S196x768] S197x768 0
  inb_S16x197x768_S1x197x768_0_0_0 : ∀ a, (![0, 0, 0] : Fin 3 → Nat) a + S1x197x768.size a ≤ S16x197x768.size a
  h_S1x197x768 : 0 < S1x197x768.numel
  shapeCasts_S1x197x768_S197x768 : S1x197x768.ShapeCasts S197x768
  shapeCasts_S197x768_S1x197x768 : S197x768.ShapeCasts S1x197x768
  inb_S16x196x768_S1x196x768_1_0_0 : ∀ a, (![1, 0, 0] : Fin 3 → Nat) a + S1x196x768.size a ≤ S16x196x768.size a
  inb_S16x197x768_S1x197x768_1_0_0 : ∀ a, (![1, 0, 0] : Fin 3 → Nat) a + S1x197x768.size a ≤ S16x197x768.size a
  inb_S16x196x768_S1x196x768_2_0_0 : ∀ a, (![2, 0, 0] : Fin 3 → Nat) a + S1x196x768.size a ≤ S16x196x768.size a
  inb_S16x197x768_S1x197x768_2_0_0 : ∀ a, (![2, 0, 0] : Fin 3 → Nat) a + S1x197x768.size a ≤ S16x197x768.size a
  inb_S16x196x768_S1x196x768_3_0_0 : ∀ a, (![3, 0, 0] : Fin 3 → Nat) a + S1x196x768.size a ≤ S16x196x768.size a
  inb_S16x197x768_S1x197x768_3_0_0 : ∀ a, (![3, 0, 0] : Fin 3 → Nat) a + S1x197x768.size a ≤ S16x197x768.size a
  inb_S16x196x768_S1x196x768_4_0_0 : ∀ a, (![4, 0, 0] : Fin 3 → Nat) a + S1x196x768.size a ≤ S16x196x768.size a
  inb_S16x197x768_S1x197x768_4_0_0 : ∀ a, (![4, 0, 0] : Fin 3 → Nat) a + S1x197x768.size a ≤ S16x197x768.size a
  inb_S16x196x768_S1x196x768_5_0_0 : ∀ a, (![5, 0, 0] : Fin 3 → Nat) a + S1x196x768.size a ≤ S16x196x768.size a
  inb_S16x197x768_S1x197x768_5_0_0 : ∀ a, (![5, 0, 0] : Fin 3 → Nat) a + S1x197x768.size a ≤ S16x197x768.size a
  inb_S16x196x768_S1x196x768_6_0_0 : ∀ a, (![6, 0, 0] : Fin 3 → Nat) a + S1x196x768.size a ≤ S16x196x768.size a
  inb_S16x197x768_S1x197x768_6_0_0 : ∀ a, (![6, 0, 0] : Fin 3 → Nat) a + S1x197x768.size a ≤ S16x197x768.size a
  inb_S16x196x768_S1x196x768_7_0_0 : ∀ a, (![7, 0, 0] : Fin 3 → Nat) a + S1x196x768.size a ≤ S16x196x768.size a
  inb_S16x197x768_S1x197x768_7_0_0 : ∀ a, (![7, 0, 0] : Fin 3 → Nat) a + S1x197x768.size a ≤ S16x197x768.size a
  inb_S16x196x768_S1x196x768_8_0_0 : ∀ a, (![8, 0, 0] : Fin 3 → Nat) a + S1x196x768.size a ≤ S16x196x768.size a
  inb_S16x197x768_S1x197x768_8_0_0 : ∀ a, (![8, 0, 0] : Fin 3 → Nat) a + S1x197x768.size a ≤ S16x197x768.size a
  inb_S16x196x768_S1x196x768_9_0_0 : ∀ a, (![9, 0, 0] : Fin 3 → Nat) a + S1x196x768.size a ≤ S16x196x768.size a
  inb_S16x197x768_S1x197x768_9_0_0 : ∀ a, (![9, 0, 0] : Fin 3 → Nat) a + S1x197x768.size a ≤ S16x197x768.size a
  inb_S16x196x768_S1x196x768_10_0_0 : ∀ a, (![10, 0, 0] : Fin 3 → Nat) a + S1x196x768.size a ≤ S16x196x768.size a
  inb_S16x197x768_S1x197x768_10_0_0 : ∀ a, (![10, 0, 0] : Fin 3 → Nat) a + S1x197x768.size a ≤ S16x197x768.size a
  inb_S16x196x768_S1x196x768_11_0_0 : ∀ a, (![11, 0, 0] : Fin 3 → Nat) a + S1x196x768.size a ≤ S16x196x768.size a
  inb_S16x197x768_S1x197x768_11_0_0 : ∀ a, (![11, 0, 0] : Fin 3 → Nat) a + S1x197x768.size a ≤ S16x197x768.size a
  inb_S16x196x768_S1x196x768_12_0_0 : ∀ a, (![12, 0, 0] : Fin 3 → Nat) a + S1x196x768.size a ≤ S16x196x768.size a
  inb_S16x197x768_S1x197x768_12_0_0 : ∀ a, (![12, 0, 0] : Fin 3 → Nat) a + S1x197x768.size a ≤ S16x197x768.size a
  inb_S16x196x768_S1x196x768_13_0_0 : ∀ a, (![13, 0, 0] : Fin 3 → Nat) a + S1x196x768.size a ≤ S16x196x768.size a
  inb_S16x197x768_S1x197x768_13_0_0 : ∀ a, (![13, 0, 0] : Fin 3 → Nat) a + S1x197x768.size a ≤ S16x197x768.size a
  inb_S16x196x768_S1x196x768_14_0_0 : ∀ a, (![14, 0, 0] : Fin 3 → Nat) a + S1x196x768.size a ≤ S16x196x768.size a
  inb_S16x197x768_S1x197x768_14_0_0 : ∀ a, (![14, 0, 0] : Fin 3 → Nat) a + S1x197x768.size a ≤ S16x197x768.size a
  inb_S16x196x768_S1x196x768_15_0_0 : ∀ a, (![15, 0, 0] : Fin 3 → Nat) a + S1x196x768.size a ≤ S16x196x768.size a
  inb_S16x197x768_S1x197x768_15_0_0 : ∀ a, (![15, 0, 0] : Fin 3 → Nat) a + S1x197x768.size a ≤ S16x197x768.size a
  dot_S196x768_S768x768_S196x768_1_1_0_0_n_n_wf : DotDims.WF S196x768 S768x768 S196x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x196x768.size a ≤ S128x196x768.size a
  hwx0_0 : ∀ i : grid0.Coords, EltTy.bits .bf16 = 32 ∨ (Rect.block (s := S128x196x768) S16x196x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x197x768.size a ≤ S128x197x768.size a
  hwx0_4 : ∀ i : grid0.Coords, EltTy.bits .f32 = 32 ∨ (Rect.block (s := S128x197x768) S16x197x768.size (cc0_transform_4 i) (hinb0_4 i)).WholeWords (EltTy.packing .f32)

variable [Facts₀]

def dot_S196x768_S768x768_S196x768_1_1_0_0_n_n : DotDims S196x768 S768x768 S196x768 where
  lhsContracting := [1]
  rhsContracting := [1]
  lhsNonContracting := [0]
  rhsNonContracting := [0]
  lhsBatch := []
  rhsBatch := []
  wf := dot_S196x768_S768x768_S196x768_1_1_0_0_n_n_wf

abbrev win0_0 : Pipeline.Window sig grid0 :=
  Pipeline.Window.ofSpec (Memref.whole main_v3) S16x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x197x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S1x1x768 : Shape := ⟨3, ![1, 1, 768]⟩
abbrev S128x1x768 : Shape := ⟨3, ![128, 1, 768]⟩
abbrev S128x197x768 : Shape := ⟨3, ![128, 197, 768]⟩

abbrev nBuf : Space → Nat
  | .hbm => 14
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S128x3x14x16x14x16, .f32⟩
  | .hbm, ⟨5, _⟩ => ⟨S128x14x14x3x16x16, .f32⟩
  | .hbm, ⟨6, _⟩ => ⟨S128x196x768, .f32⟩
  | .hbm, ⟨7, _⟩ => ⟨S128x196x768, .f32⟩
  | .hbm, ⟨8, _⟩ => ⟨S1x1x768, .f32⟩
  | .hbm, ⟨9, _⟩ => ⟨S128x196x768, .f32⟩
  | .hbm, ⟨10, _⟩ => ⟨S128x196x768, .f32⟩
  | .hbm, ⟨11, _⟩ => ⟨S1x1x768, .f32⟩
  | .hbm, ⟨12, _⟩ => ⟨S128x1x768, .f32⟩
  | .hbm, ⟨13, _⟩ => ⟨S128x197x768, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  dot_S128x196x768_S768x768_S128x196x768_2_1_01_0_n_n_wf : DotDims.WF S128x196x768 S768x768 S128x196x768 [2] [1] [0, 1] [0] [] []

variable [Facts₀]

def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf

class Facts : Prop extends Facts₀ where

variable [Facts]
-- ==== Proof.Spec.lean ====
/-
  The patch embedding, as one function of the arrays.

  An image is cut into 196 patches of 768 numbers each (the array `P` below holds them, one row per patch).
  Each patch is projected by the weight matrix `W` (row `h` of `W` is dotted with the patch: a sum over the
  768 entries `d`) and the bias `b h` is added; the class token `cls` is put in front as row 0, so an image
  has 197 rows: row 0 is the class token, row `r + 1` is the projected patch `r`.

  Over the extended reals this needs no side condition: a sum of products and one more addition are
  defined for every value, and nothing is rearranged between the two programs beyond the order of the
  summands, which a finite sum does not depend on.
-/
import Idealize.ShloMosaic.PureOps.Ideal
import Idealize.ShloMosaic.Lib.ValueIdx

noncomputable section

namespace Cert.PatchEmbed

open Idealize.ShloMosaic Idealize.ShloMosaic.ValueIdx

/-- Entry `h` of row `r` of image `n`: the class token's entry `h` when `r = 0`, and otherwise
    `∑ d, P[n, r - 1, d] · W[h, d] + b[h]`. The number of images `N` is a parameter, so that the same
    formula reads the whole batch, a block of sixteen images, or a single image. -/
def token {N : Nat} (P : (⟨3, ![N, 196, 768]⟩ : Shape).Idx → EReal) (W : (⟨2, ![768, 768]⟩ : Shape).Idx → EReal)
    (b : (⟨1, ![768]⟩ : Shape).Idx → EReal) (cls : (⟨2, ![1, 768]⟩ : Shape).Idx → EReal)
    (n : Fin N) (r : Fin 197) (h : Fin 768) : EReal :=
  if hr : r.val = 0 then cls (ix2 (0 : Fin 1) h)
  else (∑ d : Fin 768, P (ix3 n (⟨r.val - 1, by have := r.isLt; omega⟩ : Fin 196) d) * W (ix2 h d)) + b (ix1 h)

/-- The whole result: `token` at the three coordinates of an index. -/
def embed {N : Nat} (P : (⟨3, ![N, 196, 768]⟩ : Shape).Idx → EReal) (W : (⟨2, ![768, 768]⟩ : Shape).Idx → EReal)
    (b : (⟨1, ![768]⟩ : Shape).Idx → EReal) (cls : (⟨2, ![1, 768]⟩ : Shape).Idx → EReal) :
    (⟨3, ![N, 197, 768]⟩ : Shape).Idx → EReal :=
  fun i => token P W b cls (i 0) (i 1) (i 2)

/-- A token depends on the patches of its own image only: if image `j` of one stack of patches is image
    `n` of another, the two stacks give the same token there. (A block of images cut out of the batch, or
    one image cut out of a block, is such a stack.) -/
theorem token_congr {N N' : Nat} (P : (⟨3, ![N, 196, 768]⟩ : Shape).Idx → EReal)
    (X : (⟨3, ![N', 196, 768]⟩ : Shape).Idx → EReal) (W : (⟨2, ![768, 768]⟩ : Shape).Idx → EReal)
    (b : (⟨1, ![768]⟩ : Shape).Idx → EReal) (cls : (⟨2, ![1, 768]⟩ : Shape).Idx → EReal)
    (n : Fin N) (j : Fin N') (hX : ∀ (r : Fin 196) (d : Fin 768), X (ix3 j r d) = P (ix3 n r d))
    (r : Fin 197) (h : Fin 768) : token X W b cls j r h = token P W b cls n r h := by
  unfold token
  split
  · rfl
  · simp only [hX]

end Cert.PatchEmbed

end
-- ==== Proof.Tile.lean ====
/-
  What one store of the kernel body writes, read entry by entry.

  The body handles its sixteen images one after the other, and every one of its sixteen stores writes the
  same expression `tile` of the loaded weight, bias, class token and one image's patches: the class
  token's row on top of `patches · Wᵀ + b`. Read at an entry this is `Cert.PatchEmbed.token` for a stack of
  one image: row 0 comes from the first piece of the concatenation, row `r + 1` from the second, where the
  matrix product into a zero accumulator is the plain sum over the contracted axis, the bias row is repeated
  down the rows, and the change of float format of the weight is the identity on extended reals.
-/
import proofs.«141842_j72335839199699_2_alg».proof.Proof.Gen.KernelIdeal.Skeleton
import proofs.«141842_j72335839199699_2_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.PatchEmbed

section AnyFloats

variable {F : FTy → Type} [FloatOps F]

/-- One image's 197 rows from the weight, the bias, the class token and the image's patches. -/
def tile (w : Vec F S768x768 .f32) (b : Vec F S768 .f32) (cls : Vec F S1x768 .f32) (p : Vec F S1x196x768 .bf16) :
    FVec F S1x197x768 .f32 :=
  shapeCast S1x197x768
    (concatenate S197x768 0
      [⟨S1x768, cls⟩,
       ⟨S196x768, addf
          (matmul dot_S196x768_S768x768_S196x768_1_1_0_0_n_n none (shapeCast S196x768 p shapeCasts_S1x196x768_S196x768)
            (truncf .bf16 w bitsLt_bf16_f32) (constant S196x768 .f32 0x00000000#32))
          (broadcastTo S196x768 (shapeCast S1x768 b shapeCasts_S768_S1x768) broadcasts_S1x768_S196x768)⟩]
      concatenates_S1x768_S196x768_S197x768_d0)
    shapeCasts_S197x768_S1x197x768

/-! Each of the sixteen stored values is `tile` of its own image's patches. -/

theorem pay3_eq (w : Vec F S768x768 .f32) (b : Vec F S768 .f32) (cls : Vec F S1x768 .f32) (p : Vec F S1x196x768 .bf16) :
    k0_pay3 w b cls p = tile w b cls p := rfl
theorem pay4_eq (w : Vec F S768x768 .f32) (b : Vec F S768 .f32) (cls : Vec F S1x768 .f32) (p : Vec F S1x196x768 .bf16) :
    k0_pay4 w b cls p = tile w b cls p := rfl
theorem pay6_eq (w : Vec F S768x768 .f32) (b : Vec F S768 .f32) (cls : Vec F S1x768 .f32) (p : Vec F S1x196x768 .bf16) :
    k0_pay6 (k0_pay5 w b cls p) = tile w b cls p := rfl
theorem pay7_eq (w : Vec F S768x768 .f32) (b : Vec F S768 .f32) (cls : Vec F S1x768 .f32) (p : Vec F S1x196x768 .bf16) :
    k0_pay7 (k0_pay2 w) b cls p = tile w b cls p := rfl
theorem pay8_eq (w : Vec F S768x768 .f32) (b : Vec F S768 .f32) (cls : Vec F S1x768 .f32) (p : Vec F S1x196x768 .bf16) :
    k0_pay8 (k0_pay2 w) b cls p = tile w b cls p := rfl
theorem pay9_eq (w : Vec F S768x768 .f32) (b : Vec F S768 .f32) (cls : Vec F S1x768 .f32) (p : Vec F S1x196x768 .bf16) :
    k0_pay9 (k0_pay2 w) b cls p = tile w b cls p := rfl
theorem pay10_eq (w : Vec F S768x768 .f32) (b : Vec F S768 .f32) (cls : Vec F S1x768 .f32) (p : Vec F S1x196x768 .bf16) :
    k0_pay10 (k0_pay2 w) b cls p = tile w b cls p := rfl
theorem pay11_eq (w : Vec F S768x768 .f32) (b : Vec F S768 .f32) (cls : Vec F S1x768 .f32) (p : Vec F S1x196x768 .bf16) :
    k0_pay11 (k0_pay2 w) b cls p = tile w b cls p := rfl
theorem pay12_eq (w : Vec F S768x768 .f32) (b : Vec F S768 .f32) (cls : Vec F S1x768 .f32) (p : Vec F S1x196x768 .bf16) :
    k0_pay12 (k0_pay2 w) b cls p = tile w b cls p := rfl
theorem pay15_eq (w : Vec F S768x768 .f32) (b : Vec F S768 .f32) (cls : Vec F S1x768 .f32) (p : Vec F S1x196x768 .bf16) :
    k0_pay15 cls (k0_pay13 (k0_pay2 w) p) (k0_pay14 b) = tile w b cls p := rfl
theorem pay16_eq (w : Vec F S768x768 .f32) (b : Vec F S768 .f32) (cls : Vec F S1x768 .f32) (p : Vec F S1x196x768 .bf16) :
    k0_pay16 (k0_pay2 w) b cls p = tile w b cls p := rfl
theorem pay17_eq (w : Vec F S768x768 .f32) (b : Vec F S768 .f32) (cls : Vec F S1x768 .f32) (p : Vec F S1x196x768 .bf16) :
    k0_pay17 (k0_pay2 w) b cls p = tile w b cls p := rfl
theorem pay19_eq (w : Vec F S768x768 .f32) (b : Vec F S768 .f32) (cls : Vec F S1x768 .f32) (p : Vec F S1x196x768 .bf16) :
    k0_pay19 (k0_pay18 (k0_pay2 w) b cls p) = tile w b cls p := rfl
theorem pay20_eq (w : Vec F S768x768 .f32) (b : Vec F S768 .f32) (cls : Vec F S1x768 .f32) (p : Vec F S1x196x768 .bf16) :
    k0_pay20 (k0_pay2 w) b cls p = tile w b cls p := rfl
theorem pay21_eq (w : Vec F S768x768 .f32) (b : Vec F S768 .f32) (cls : Vec F S1x768 .f32) (p : Vec F S1x196x768 .bf16) :
    k0_pay21 (k0_pay2 w) b cls p = tile w b cls p := rfl
theorem pay1_eq (w : Vec F S768x768 .f32) (b : Vec F S768 .f32) (cls : Vec F S1x768 .f32) (p : Vec F S1x196x768 .bf16) :
    k0_pay1 (k0_pay22 (k0_pay2 w) b cls p) = tile w b cls p := rfl

end AnyFloats

/-! ## The tile at an entry, over the extended reals -/

/-! The operand entries a product entry reads: row `i 0` of the patches and row `i 1` of the weight, each at the
    contracted position. -/

theorem lhs_row (i : S196x768.Idx) (k : dot_S196x768_S768x768_S196x768_1_1_0_0_n_n.contr.Idx) :
    (dot_S196x768_S768x768_S196x768_1_1_0_0_n_n.lhsIdx i k 0).val = (i 0).val := by
  unfold DotDims.lhsIdx
  rw [dif_neg (show ¬(0 : Fin S196x768.rank) ∈ dot_S196x768_S768x768_S196x768_1_1_0_0_n_n.lhsBatch by decide),
    dif_pos (show (0 : Fin S196x768.rank) ∈ dot_S196x768_S768x768_S196x768_1_1_0_0_n_n.lhsNonContracting by decide)]
  rfl
theorem lhs_col (i : S196x768.Idx) (k : dot_S196x768_S768x768_S196x768_1_1_0_0_n_n.contr.Idx) :
    (dot_S196x768_S768x768_S196x768_1_1_0_0_n_n.lhsIdx i k 1).val = (k ⟨0, by decide⟩).val :=
  dot_S196x768_S768x768_S196x768_1_1_0_0_n_n.lhsIdx_val_of_single rfl i k
theorem rhs_row (i : S196x768.Idx) (k : dot_S196x768_S768x768_S196x768_1_1_0_0_n_n.contr.Idx) :
    (dot_S196x768_S768x768_S196x768_1_1_0_0_n_n.rhsIdx i k 0).val = (i 1).val := by
  unfold DotDims.rhsIdx
  rw [dif_neg (show ¬(0 : Fin S768x768.rank) ∈ dot_S196x768_S768x768_S196x768_1_1_0_0_n_n.rhsBatch by decide),
    dif_pos (show (0 : Fin S768x768.rank) ∈ dot_S196x768_S768x768_S196x768_1_1_0_0_n_n.rhsNonContracting by decide)]
  rfl
theorem rhs_col (i : S196x768.Idx) (k : dot_S196x768_S768x768_S196x768_1_1_0_0_n_n.contr.Idx) :
    (dot_S196x768_S768x768_S196x768_1_1_0_0_n_n.rhsIdx i k 1).val = (k ⟨0, by decide⟩).val :=
  dot_S196x768_S768x768_S196x768_1_1_0_0_n_n.rhsIdx_val_of_single rfl i k

/-- The matrix product of one image's patches with the weight, at row `r` and column `h`: the sum over the
    768 patch entries `d` of `patch[r, d] · W[h, d]` (both operands are contracted along their second axis). -/
theorem project_apply (q : FVec Ideal S196x768 .bf16) (w : FVec Ideal S768x768 .f32) (r : Fin 196) (h : Fin 768) :
    matmul dot_S196x768_S768x768_S196x768_1_1_0_0_n_n none q (truncf .bf16 w bitsLt_bf16_f32)
        (constant (F := Ideal) S196x768 .f32 0x00000000#32) (ix2 r h)
      = ∑ d : Fin 768, q (ix2 r d) * w (ix2 h d) := by
  simp only [matmul]
  rw [Ideal.matmul_constant_zero_apply,
    ← Equiv.sum_comp (ValueIdx.contrEquiv1 dot_S196x768_S768x768_S196x768_1_1_0_0_n_n 768 rfl rfl).symm]
  refine Finset.sum_congr rfl fun d _ => ?_
  have hd := ValueIdx.contrEquiv1_symm_val dot_S196x768_S768x768_S196x768_1_1_0_0_n_n 768 rfl rfl d
  have el : dot_S196x768_S768x768_S196x768_1_1_0_0_n_n.lhsIdx (ix2 r h)
      ((ValueIdx.contrEquiv1 dot_S196x768_S768x768_S196x768_1_1_0_0_n_n 768 rfl rfl).symm d) = ix2 r d :=
    funext fun a => Fin.ext (by
      match a with
      | ⟨0, _⟩ => exact lhs_row _ _
      | ⟨1, _⟩ => exact (lhs_col _ _).trans hd)
  have er : dot_S196x768_S768x768_S196x768_1_1_0_0_n_n.rhsIdx (ix2 r h)
      ((ValueIdx.contrEquiv1 dot_S196x768_S768x768_S196x768_1_1_0_0_n_n 768 rfl rfl).symm d) = ix2 h d :=
    funext fun a => Fin.ext (by
      match a with
      | ⟨0, _⟩ => exact rhs_row _ _
      | ⟨1, _⟩ => exact (rhs_col _ _).trans hd)
  rw [el, er]
  rfl

/-- The whole tile at an entry is the token of a stack of one image. -/
theorem tile_apply (w : FVec Ideal S768x768 .f32) (b : FVec Ideal S768 .f32) (cls : FVec Ideal S1x768 .f32)
    (p : FVec Ideal S1x196x768 .bf16) (a : Fin 1) (r : Fin 197) (h : Fin 768) :
    tile (F := Ideal) w b cls p (ix3 a r h) = token (N := 1) p w b cls a r h := by
  have ha : a = 0 := Fin.ext (by have := a.isLt; omega)
  subst ha
  unfold tile token
  rw [shapeCast_addUnit_apply]
  have ej : (fun a_1 : Fin 2 => ix3 (0 : Fin 1) r h a_1.succ) = ix2 r h :=
    funext fun a => by match a with | ⟨0, _⟩ => rfl | ⟨1, _⟩ => rfl
  rw [ej]
  by_cases hr : r.val = 0
  · -- row 0: the first piece of the concatenation, the class token
    rw [dif_pos hr]
    exact concatenate_pair_apply_left (0 : Fin 2) cls _ concatenates_S1x768_S196x768_S197x768_d0 (ix2 r h) rfl
      (ix2 (0 : Fin 1) h) (fun b => by match b with | ⟨0, _⟩ => exact hr.symm | ⟨1, _⟩ => rfl)
  · -- row r ≥ 1: the second piece, at row r - 1
    rw [dif_neg hr]
    have hlt : r.val - 1 < 196 := by have := r.isLt; omega
    refine (concatenate_pair_apply_right (t := S197x768) (s₁ := S1x768) (s₂ := S196x768) (0 : Fin 2) cls _
      concatenates_S1x768_S196x768_S197x768_d0 (ix2 r h) rfl rfl
      (ix2 (⟨r.val - 1, hlt⟩ : Fin 196) h) (fun b hb => by
        match b with
        | ⟨0, _⟩ => exact absurd rfl hb
        | ⟨1, _⟩ => rfl) (by show r.val - 1 + 1 = r.val; omega)).trans ?_
    rw [addf_apply, project_apply]
    -- the patches lose their leading unit axis, the bias row is repeated down the rows
    have ep : ∀ d : Fin 768, shapeCast S196x768 p shapeCasts_S1x196x768_S196x768 (ix2 (⟨r.val - 1, hlt⟩ : Fin 196) d)
        = p (ix3 (0 : Fin 1) (⟨r.val - 1, hlt⟩ : Fin 196) d) := fun d =>
      (shapeCast_dropUnit_apply ![196, 768] p shapeCasts_S1x196x768_S196x768 _).trans
        (congrArg p (funext fun a => by match a with | ⟨0, _⟩ => rfl | ⟨1, _⟩ => rfl | ⟨2, _⟩ => rfl))
    have eb : broadcastTo S196x768 (shapeCast S1x768 b shapeCasts_S768_S1x768) broadcasts_S1x768_S196x768
        (ix2 (⟨r.val - 1, hlt⟩ : Fin 196) h) = b (ix1 h) :=
      (broadcastTo_apply (shapeCast S1x768 b shapeCasts_S768_S1x768) broadcasts_S1x768_S196x768 _ (ix2 (0 : Fin 1) h)
        (fun a => by match a with | ⟨0, _⟩ => rfl | ⟨1, _⟩ => rfl)).trans
        ((shapeCast_addUnit_apply ![768] b shapeCasts_S768_S1x768 _).trans
          (congrArg b (funext fun a => by match a with | ⟨0, _⟩ => rfl)))
    rw [eb]
    simp only [ep]

end Cert.KernelIdeal.Tile

end
-- ==== Proof.Block.lean ====
/-
  What the kernel body leaves in its output block, read entry by entry.

  At a grid point the body holds sixteen images' patches `x0`, the weight `x1`, the bias `x2` and the class
  token `x3`. It writes sixteen slabs of 197 rows, slab `j` being the tile of image `j`; the slabs do not
  overlap and fill the block. So entry (j, r, h) of the block is `Cert.PatchEmbed.token` of the sixteen images'
  patches at image `j`: the slab that holds the entry is the tile of the patches loaded at offset `j`, and a tile is
  the token of its single image.
-/
import proofs.«141842_j72335839199699_2_alg».proof.Proof.Gen.KernelIdeal.Frame
import proofs.«141842_j72335839199699_2_alg».proof.Proof.Tile

set_option maxRecDepth 16384

noncomputable section

namespace Cert.KernelIdeal.Block

open Cert.KernelIdeal Cert.KernelIdeal.Gen Cert.KernelIdeal.Tile Idealize.ShloMosaic Idealize.ShloMosaic.ValueIdx Cert.PatchEmbed

theorem zeros1 : (![0] : Fin 1 → Nat) = fun _ => 0 := funext fun a => by fin_cases a <;> rfl
theorem zeros2 : (![0, 0] : Fin 2 → Nat) = fun _ => 0 := funext fun a => by fin_cases a <;> rfl

/-- The body's sixteen stores, each spelt as the tile of its image (last store first, as the stores are listed). -/
theorem out_tiles {F : FTy → Type} [FloatOps F] (x0 : Vec F S16x196x768 .bf16) (x1 : Vec F S768x768 .f32)
    (x2 : Vec F S768 .f32) (x3 : Vec F S1x768 .f32) :
    out0_4 x0 x1 x2 x3 = View.canon
      [⟨r0_34, tile (View.ld x1 r0_0) (View.ld x2 r0_1) (View.ld x3 r0_2) (View.ld x0 r0_33)⟩,
       ⟨r0_32, tile (View.ld x1 r0_0) (View.ld x2 r0_1) (View.ld x3 r0_2) (View.ld x0 r0_31)⟩,
       ⟨r0_30, tile (View.ld x1 r0_0) (View.ld x2 r0_1) (View.ld x3 r0_2) (View.ld x0 r0_29)⟩,
       ⟨r0_28, tile (View.ld x1 r0_0) (View.ld x2 r0_1) (View.ld x3 r0_2) (View.ld x0 r0_27)⟩,
       ⟨r0_26, tile (View.ld x1 r0_0) (View.ld x2 r0_1) (View.ld x3 r0_2) (View.ld x0 r0_25)⟩,
       ⟨r0_24, tile (View.ld x1 r0_0) (View.ld x2 r0_1) (View.ld x3 r0_2) (View.ld x0 r0_23)⟩,
       ⟨r0_22, tile (View.ld x1 r0_0) (View.ld x2 r0_1) (View.ld x3 r0_2) (View.ld x0 r0_21)⟩,
       ⟨r0_20, tile (View.ld x1 r0_0) (View.ld x2 r0_1) (View.ld x3 r0_2) (View.ld x0 r0_19)⟩,
       ⟨r0_18, tile (View.ld x1 r0_0) (View.ld x2 r0_1) (View.ld x3 r0_2) (View.ld x0 r0_17)⟩,
       ⟨r0_16, tile (View.ld x1 r0_0) (View.ld x2 r0_1) (View.ld x3 r0_2) (View.ld x0 r0_15)⟩,
       ⟨r0_14, tile (View.ld x1 r0_0) (View.ld x2 r0_1) (View.ld x3 r0_2) (View.ld x0 r0_13)⟩,
       ⟨r0_12, tile (View.ld x1 r0_0) (View.ld x2 r0_1) (View.ld x3 r0_2) (View.ld x0 r0_11)⟩,
       ⟨r0_10, tile (View.ld x1 r0_0) (View.ld x2 r0_1) (View.ld x3 r0_2) (View.ld x0 r0_9)⟩,
       ⟨r0_8, tile (View.ld x1 r0_0) (View.ld x2 r0_1) (View.ld x3 r0_2) (View.ld x0 r0_7)⟩,
       ⟨r0_6, tile (View.ld x1 r0_0) (View.ld x2 r0_1) (View.ld x3 r0_2) (View.ld x0 r0_5)⟩,
       ⟨r0_4, tile (View.ld x1 r0_0) (View.ld x2 r0_1) (View.ld x3 r0_2) (View.ld x0 r0_3)⟩] := rfl

/-- Slab `j`: the tile of the patches loaded at image offset `j`, at a slab entry, is the block's token at the
    block entry the slab's rectangle places it at — image `j`, the same row and column. -/
theorem slab_apply (j : Nat) (hj : j < 16)
    (inbP : ∀ a, (![j, 0, 0] : Fin 3 → Nat) a + S1x196x768.size a ≤ S16x196x768.size a)
    (inbO : ∀ a, (![j, 0, 0] : Fin 3 → Nat) a + S1x197x768.size a ≤ S16x197x768.size a)
    (x0 : FVec Ideal S16x196x768 .bf16) (x1 : FVec Ideal S768x768 .f32) (x2 : FVec Ideal S768 .f32)
    (x3 : FVec Ideal S1x768 .f32) (x : S1x197x768.Idx) :
    tile (F := Ideal) (View.ld x1 r0_0) (View.ld x2 r0_1) (View.ld x3 r0_2)
        (View.ld x0 (Rect.unit (s := S16x196x768) ![j, 0, 0] S1x196x768.size inbP)) x
      = embed (N := 16) x0 x1 x2 x3 ((Rect.unit (s := S16x197x768) ![j, 0, 0] S1x197x768.size inbO).emb x) := by
  rw [View.ld_unit_zero zeros2, View.ld_unit_zero zeros1, View.ld_unit_zero zeros2]
  obtain ⟨a, r, h, rfl⟩ : ∃ (a : Fin 1) (r : Fin 197) (h : Fin 768), x = ix3 a r h := ⟨x 0, x 1, x 2, eq_ix3 x⟩
  rw [tile_apply]
  unfold embed
  have ha : a = 0 := Fin.ext (by have := a.isLt; omega)
  subst ha
  have e0 : ((Rect.unit (s := S16x197x768) ![j, 0, 0] S1x197x768.size inbO).emb (ix3 (0 : Fin 1) r h) 0 : Fin 16)
      = ⟨j, hj⟩ := Fin.ext (by show j + 1 * 0 = j; omega)
  have e1 : ((Rect.unit (s := S16x197x768) ![j, 0, 0] S1x197x768.size inbO).emb (ix3 (0 : Fin 1) r h) 1 : Fin 197)
      = r := Fin.ext (by show 0 + 1 * r.val = r.val; omega)
  have e2 : ((Rect.unit (s := S16x197x768) ![j, 0, 0] S1x197x768.size inbO).emb (ix3 (0 : Fin 1) r h) 2 : Fin 768)
      = h := Fin.ext (by show 0 + 1 * h.val = h.val; omega)
  refine (token_congr x0 _ x1 x2 x3 (⟨j, hj⟩ : Fin 16) (0 : Fin 1) (fun r' d => ?_) r h).trans ?_
  · exact congrArg x0 (funext fun b => Fin.ext (by
      match b with
      | ⟨0, _⟩ => show j + 1 * 0 = j; omega
      | ⟨1, _⟩ => show 0 + 1 * r'.val = r'.val; omega
      | ⟨2, _⟩ => show 0 + 1 * d.val = d.val; omega))
  · exact congr (congr (congrArg (token x0 x1 x2 x3) e0.symm) e1.symm) e2.symm

/-- The block after the body, entry by entry: the token of the sixteen images' patches. -/
theorem out_apply (x0 : FVec Ideal S16x196x768 .bf16) (x1 : FVec Ideal S768x768 .f32) (x2 : FVec Ideal S768 .f32)
    (x3 : FVec Ideal S1x768 .f32) (y : S16x197x768.Idx) :
    out0_4 (F := Ideal) x0 x1 x2 x3 y = embed (N := 16) x0 x1 x2 x3 y := by
  rw [out_tiles]
  refine View.canon_apply_of_pieces (Val := Elt Ideal) (S := S16x197x768) (e := .f32) (embed (N := 16) x0 x1 x2 x3) _ (fun p hp => ?_) y (cover0_4 _ _ _ _ _ _ _ _ _ _ _ _ _ _ _ _ y)
  simp only [List.mem_cons, List.mem_singleton, List.not_mem_nil, or_false] at hp
  rcases hp with rfl | rfl | rfl | rfl | rfl | rfl | rfl | rfl | rfl | rfl | rfl | rfl | rfl | rfl | rfl | rfl
  · exact slab_apply 15 (by decide) Facts₀.inb_S16x196x768_S1x196x768_15_0_0 Facts₀.inb_S16x197x768_S1x197x768_15_0_0 x0 x1 x2 x3
  · exact slab_apply 14 (by decide) Facts₀.inb_S16x196x768_S1x196x768_14_0_0 Facts₀.inb_S16x197x768_S1x197x768_14_0_0 x0 x1 x2 x3
  · exact slab_apply 13 (by decide) Facts₀.inb_S16x196x768_S1x196x768_13_0_0 Facts₀.inb_S16x197x768_S1x197x768_13_0_0 x0 x1 x2 x3
  · exact slab_apply 12 (by decide) Facts₀.inb_S16x196x768_S1x196x768_12_0_0 Facts₀.inb_S16x197x768_S1x197x768_12_0_0 x0 x1 x2 x3
  · exact slab_apply 11 (by decide) Facts₀.inb_S16x196x768_S1x196x768_11_0_0 Facts₀.inb_S16x197x768_S1x197x768_11_0_0 x0 x1 x2 x3
  · exact slab_apply 10 (by decide) Facts₀.inb_S16x196x768_S1x196x768_10_0_0 Facts₀.inb_S16x197x768_S1x197x768_10_0_0 x0 x1 x2 x3
  · exact slab_apply 9 (by decide) Facts₀.inb_S16x196x768_S1x196x768_9_0_0 Facts₀.inb_S16x197x768_S1x197x768_9_0_0 x0 x1 x2 x3
  · exact slab_apply 8 (by decide) Facts₀.inb_S16x196x768_S1x196x768_8_0_0 Facts₀.inb_S16x197x768_S1x197x768_8_0_0 x0 x1 x2 x3
  · exact slab_apply 7 (by decide) Facts₀.inb_S16x196x768_S1x196x768_7_0_0 Facts₀.inb_S16x197x768_S1x197x768_7_0_0 x0 x1 x2 x3
  · exact slab_apply 6 (by decide) Facts₀.inb_S16x196x768_S1x196x768_6_0_0 Facts₀.inb_S16x197x768_S1x197x768_6_0_0 x0 x1 x2 x3
  · exact slab_apply 5 (by decide) Facts₀.inb_S16x196x768_S1x196x768_5_0_0 Facts₀.inb_S16x197x768_S1x197x768_5_0_0 x0 x1 x2 x3
  · exact slab_apply 4 (by decide) Facts₀.inb_S16x196x768_S1x196x768_4_0_0 Facts₀.inb_S16x197x768_S1x197x768_4_0_0 x0 x1 x2 x3
  · exact slab_apply 3 (by decide) Facts₀.inb_S16x196x768_S1x196x768_3_0_0 Facts₀.inb_S16x197x768_S1x197x768_3_0_0 x0 x1 x2 x3
  · exact slab_apply 2 (by decide) Facts₀.inb_S16x196x768_S1x196x768_2_0_0 Facts₀.inb_S16x197x768_S1x197x768_2_0_0 x0 x1 x2 x3
  · exact slab_apply 1 (by decide) Facts₀.inb_S16x196x768_S1x196x768_1_0_0 Facts₀.inb_S16x197x768_S1x197x768_1_0_0 x0 x1 x2 x3
  · exact slab_apply 0 (by decide) Facts₀.inb_S16x196x768_S1x196x768_0_0_0 Facts₀.inb_S16x197x768_S1x197x768_0_0_0 x0 x1 x2 x3

end Cert.KernelIdeal.Block

end
-- ==== Proof.Array.lean ====
/-
  From the blocks to the whole result array of the kernel.

  The grid has eight points; point `t` works on images `16 t … 16 t + 15`: its patch block and its output block
  both sit at block index `t` along the image axis and cover the other axes whole, while the weight, the bias
  and the class token are the same whole arrays at every point. So what point `t` writes back — the token of
  its sixteen images' patches (Block.lean) — is block `t` of ONE function of the whole arrays, the embedding of
  all 128 images; the eight blocks cover the result, which therefore ends holding that function.

  The patch array the call reads was made just before it from the images: cut into patches (two reshapes
  around a transpose) and changed to the narrower float format, which is the identity on extended reals.
-/
import proofs.«141842_j72335839199699_2_alg».proof.Proof.Gen.KernelIdeal.Value
import proofs.«141842_j72335839199699_2_alg».proof.Proof.Block
import Idealize.ShloMosaic.Lib.StableHlo.Run

set_option maxRecDepth 16384

noncomputable section

namespace Cert.KernelIdeal.RefValue

open Cert.KernelIdeal Cert.KernelIdeal.Gen Cert.KernelIdeal.Block Idealize.ShloMosaic Idealize.ShloMosaic.TcCoe
  Idealize.ShloMosaic.ValueIdx Idealize.SL.Sem Cert.PatchEmbed
open Idealize.ShloMosaic.Pipeline (Dat)

variable (m : (ℓ : Loc nD τ sig) → Buf (Elt Ideal) ℓ) (ρ : Dev nD → PrngReg)

/-- Where each window's block sits at grid point `t`: the patches and the output at block `t` of the image axis,
    everything else at block 0 (decided over the eight points). -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The result array as one function of the arrays the call finds: the embedding of all 128 images. -/
abbrev result (c : Dev nD) : S128x197x768.Idx → EReal :=
  embed (N := 128) (V m c main_v3) (V m c main_arg1) (V m c main_arg2) (V m c main_arg3)

/-- What point `t` writes back is block `t` of `result`. -/
theorem flushed_eq (c : Dev nD) (t : Fin cfg0.N) :
    (dats m 0 c).flushed 4 t = ((cfg0.win 4).blk t).view.read (Elt Ideal) (result m c) := by
  rw [Value.flushed4]
  obtain ⟨p0, p1, p2, w0, w1, b0, c0, c1, o0, o1, o2⟩ := block_index t
  funext y
  show out0_4 (iblk m c 0 t) (iblk m c 1 t) (iblk m c 2 t) (iblk m c 3 t) y
    = result m c (((cfg0.win 4).blk t).view.emb y)
  refine (out_apply (iblk m c 0 t) (iblk m c 1 t) (iblk m c 2 t) (iblk m c 3 t) y).trans ?_
  -- the weight, the bias and the class token are read whole
  have h1 : (iblk m c 1 t : S768x768.Idx → EReal) = V m c main_arg1 := funext fun z =>
    (show iblk m c 1 t z = V m c main_arg1 (((cfg0.win 1).blk t).view.emb z) from rfl).trans
      (congrArg (V m c main_arg1) (funext fun a => Fin.ext (by
        match a with
        | ⟨0, _⟩ => show win0_1.index t (0 : Fin 2) * 768 + 1 * (z 0).val = (z 0).val; omega
        | ⟨1, _⟩ => show win0_1.index t (1 : Fin 2) * 768 + 1 * (z 1).val = (z 1).val; omega)))
  have h2 : (iblk m c 2 t : S768.Idx → EReal) = V m c main_arg2 := funext fun z =>
    (show iblk m c 2 t z = V m c main_arg2 (((cfg0.win 2).blk t).view.emb z) from rfl).trans
      (congrArg (V m c main_arg2) (funext fun a => Fin.ext (by
        match a with
        | ⟨0, _⟩ => show win0_2.index t (0 : Fin 1) * 768 + 1 * (z 0).val = (z 0).val; omega)))
  have h3 : (iblk m c 3 t : S1x768.Idx → EReal) = V m c main_arg3 := funext fun z =>
    (show iblk m c 3 t z = V m c main_arg3 (((cfg0.win 3).blk t).view.emb z) from rfl).trans
      (congrArg (V m c main_arg3) (funext fun a => Fin.ext (by
        match a with
        | ⟨0, _⟩ => show win0_3.index t (0 : Fin 2) * 1 + 1 * (z 0).val = (z 0).val; omega
        | ⟨1, _⟩ => show win0_3.index t (1 : Fin 2) * 768 + 1 * (z 1).val = (z 1).val; omega)))
  -- image `j` of the point's patch block is image `16 t + j` of the patch array, where the output block's entry sits
  have h0 : ∀ (r : Fin 196) (d : Fin 768),
      (iblk m c 0 t : S16x196x768.Idx → EReal) (ix3 (y 0 : Fin 16) r d)
        = V m c main_v3 (ix3 ((((cfg0.win 4).blk t).view.emb y) 0 : Fin 128) r d) := fun r d =>
    (show iblk m c 0 t (ix3 (y 0 : Fin 16) r d) = V m c main_v3 (((cfg0.win 0).blk t).view.emb (ix3 (y 0 : Fin 16) r d)) from rfl).trans
      (congrArg (V m c main_v3) (funext fun a => Fin.ext (by
        match a with
        | ⟨0, _⟩ => show win0_0.index t (0 : Fin 3) * 16 + 1 * (y 0).val = win0_4.index t (0 : Fin 3) * 16 + 1 * (y 0).val; omega
        | ⟨1, _⟩ => show win0_0.index t (1 : Fin 3) * 196 + 1 * r.val = r.val; omega
        | ⟨2, _⟩ => show win0_0.index t (2 : Fin 3) * 768 + 1 * d.val = d.val; omega)))
  have e1 : ((((cfg0.win 4).blk t).view.emb y) 1 : Fin 197) = y 1 :=
    Fin.ext (by show win0_4.index t (1 : Fin 3) * 197 + 1 * (y 1).val = (y 1).val; omega)
  have e2 : ((((cfg0.win 4).blk t).view.emb y) 2 : Fin 768) = y 2 :=
    Fin.ext (by show win0_4.index t (2 : Fin 3) * 768 + 1 * (y 2).val = (y 2).val; omega)
  show token (iblk m c 0 t : S16x196x768.Idx → EReal) (iblk m c 1 t : S768x768.Idx → EReal) (iblk m c 2 t : S768.Idx → EReal)
      (iblk m c 3 t : S1x768.Idx → EReal) (y 0 : Fin 16) (y 1 : Fin 197) (y 2 : Fin 768)
    = token (V m c main_v3) (V m c main_arg1) (V m c main_arg2) (V m c main_arg3)
      ((((cfg0.win 4).blk t).view.emb y) 0 : Fin 128) ((((cfg0.win 4).blk t).view.emb y) 1 : Fin 197)
      ((((cfg0.win 4).blk t).view.emb y) 2 : Fin 768)
  rw [h1, h2, h3, e1, e2]
  exact token_congr (V m c main_v3) (iblk m c 0 t : S16x196x768.Idx → EReal) _ _ _ _ _ h0 _ _

/-- An index of the result is in point `t`'s block iff each coordinate is in the block's range on its axis. -/
theorem mem_blk (t : Fin cfg0.N) (i : S128x197x768.Idx) :
    i ∈ ((cfg0.win 4).blk t).view.set ↔ ∀ a : Fin 3, win0_4.index t a * S16x197x768.size a ≤ (i a).val
      ∧ (i a).val < win0_4.index t a * S16x197x768.size a + S16x197x768.size a := by
  show i ∈ ((View.whole main_v4).slice (win0_4.rect t)).set ↔ _
  rw [View.set_slice_whole, Rect.mem_set_unit]
  exact Iff.rfl

/-- Every entry of the result is written: image `n` belongs to the block of point `n / 16`. -/
theorem covered (i : S128x197x768.Idx) :
    ∃ t : Fin cfg0.N, (cfg0.win 4).flush t = true ∧ i ∈ ((cfg0.win 4).blk t).view.set := by
  have hi0 : (i 0).val < 128 := (i 0).isLt
  have hi1 : (i 1).val < 197 := (i 1).isLt
  have hi2 : (i 2).val < 768 := (i 2).isLt
  have hN : grid0.N = 8 := N_0
  obtain ⟨t, ht⟩ : ∃ t : Fin cfg0.N, t.val = (i 0).val / 16 :=
    ⟨⟨(i 0).val / 16, by show (i 0).val / 16 < grid0.N; omega⟩, rfl⟩
  obtain ⟨-, -, -, -, -, -, -, -, o0, o1, o2⟩ := block_index t
  refine ⟨t, flush0_4 t, ?_⟩
  rw [mem_blk]
  intro a
  match a with
  | ⟨0, _⟩ =>
    show win0_4.index t (0 : Fin 3) * 16 ≤ (i 0).val ∧ (i 0).val < win0_4.index t (0 : Fin 3) * 16 + 16
    omega
  | ⟨1, _⟩ =>
    show win0_4.index t (1 : Fin 3) * 197 ≤ (i 1).val ∧ (i 1).val < win0_4.index t (1 : Fin 3) * 197 + 197
    omega
  | ⟨2, _⟩ =>
    show win0_4.index t (2 : Fin 3) * 768 ≤ (i 2).val ∧ (i 2).val < win0_4.index t (2 : Fin 3) * 768 + 768
    omega

/-- The result array after the run is the embedding of all 128 images. -/
theorem final (c : Dev nD) : (dats m 0 c).arrAt 4 cfg0.N = result m c :=
  (dats m 0 c).arrAt_eq_of_cover 4 (result m c) (fun t _ => flushed_eq m c t) covered

/-- The images cut into patches: image `n`, patch (pi, pj), entry (ch, a, b) is pixel (ch, 16 pi + a, 16 pj + b) of image
    `n`, by two reshapes around a transpose. -/
def patches (x : (⟨S128x3x224x224, .f32⟩ : BufTy).Contents (Elt Ideal)) : S128x196x768.Idx → EReal :=
  shapeCast S128x196x768
    (transpose S128x14x14x3x16x16 [0, 2, 4, 1, 3, 5]
      (shapeCast S128x3x14x16x14x16 x Facts₀.shapeCasts_S128x3x224x224_S128x3x14x16x14x16)
      Facts₀.transposes_S128x3x14x16x14x16_S128x14x14x3x16x16_0_2_4_1_3_5)
    Facts₀.shapeCasts_S128x14x14x3x16x16_S128x196x768

/-- The patch array the call reads is the images cut into patches: the change of float format after the cutting is
    the identity on extended reals. -/
theorem patches_eq (c : Dev nD) :
    (V m c main_v3 : S128x196x768.Idx → EReal) = patches (m ((c : Thread nD τ).loc main_arg0)) := by
  have e : (V m c main_v3 : S128x196x768.Idx → EReal)
      = truncf (F := Ideal) .bf16 (patches (m ((c : Thread nD τ).loc main_arg0))) bitsLt_bf16_f32 := by
    dsimp only [Gen.V, Gen.hostOps0]; after_results; rfl
  exact e

/-- The run of the idealized kernel: the result holds the embedding of the launch contents of the four arguments, which
    are unchanged. -/
theorem run : θ_run defs (onTc (τ := τ) (main (F := Ideal))) ⟨m, fun _ => 0, ρ⟩ fun r => ∀ c : Dev nD,
      r.2.mem ((c : Thread nD τ).loc main_v4)
        = embed (N := 128) (patches (m ((c : Thread nD τ).loc main_arg0))) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      unfold result
      rw [patches_eq m c, V_main_arg1 m c, V_main_arg2 m c, V_main_arg3 m c])), (h c).2⟩)
    (Value.run_blocks m ρ)

end Cert.KernelIdeal.RefValue

end
-- ==== Proof.RefEmbed.lean ====
/-
  The reference computes the patch embedding.

  Its last operation joins, along the row axis, the class token repeated for every image (one row) and the
  projected patches with the bias added (196 rows). Read at an entry: row 0 falls in the first piece and
  is the class token's entry; row `r ≥ 1` falls in the second piece at row `r - 1`, where the general matrix
  product is the sum over the contracted axis of patch entry times weight entry, and the bias, repeated over
  images and rows, is its entry `h`. That is `Cert.PatchEmbed.embed` of the reference's own patch array.
-/
import proofs.«141842_j72335839199699_2_alg».proof.Proof.Gen.ReferenceIdeal.Read
import proofs.«141842_j72335839199699_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic
  Idealize.ShloMosaic.ValueIdx Cert.PatchEmbed

/-- The reference's result is the embedding of its patch array `val_main_v2 x0` (the images cut into patches), the
    weight `x1`, the bias `x2` and the class token `x3`. -/
theorem result_eq (x0 : (⟨S128x3x224x224, .f32⟩ : BufTy).Contents (Elt Ideal)) (x1 : (⟨S768x768, .f32⟩ : BufTy).Contents (Elt Ideal))
    (x2 : (⟨S768, .f32⟩ : BufTy).Contents (Elt Ideal)) (x3 : (⟨S1x768, .f32⟩ : BufTy).Contents (Elt Ideal)) :
    val_main_v9 (F := Ideal) x0 x1 x2 x3 = embed (N := 128) (val_main_v2 (F := Ideal) x0) x1 x2 x3 := by
  funext i
  obtain ⟨n, r, h, rfl⟩ : ∃ (n : Fin 128) (r : Fin 197) (h : Fin 768), i = ix3 n r h := ⟨i 0, i 1, i 2, eq_ix3 i⟩
  unfold val_main_v9 embed token
  by_cases hr : r.val = 0
  · rw [dif_pos hr]
    refine (concatenate_pair_apply_left (t := S128x197x768) (s₁ := S128x1x768) (s₂ := S128x196x768) (1 : Fin 3) _ _
      concatenates_S128x1x768_S128x196x768_S128x197x768_d1 (ix3 n r h) rfl (ix3 n (0 : Fin 1) h) (fun b => by
        match b with
        | ⟨0, _⟩ => rfl
        | ⟨1, _⟩ => exact hr.symm
        | ⟨2, _⟩ => rfl)).trans ?_
    rw [val_main_v8_apply, val_main_v7_apply]
    exact congrArg x3 (funext fun a => by match a with | ⟨0, _⟩ => rfl | ⟨1, _⟩ => rfl)
  · rw [dif_neg hr]
    have hlt : r.val - 1 < 196 := by have := r.isLt; omega
    refine (concatenate_pair_apply_right (t := S128x197x768) (s₁ := S128x1x768) (s₂ := S128x196x768) (1 : Fin 3) _ _
      concatenates_S128x1x768_S128x196x768_S128x197x768_d1 (ix3 n r h) rfl rfl (ix3 n (⟨r.val - 1, hlt⟩ : Fin 196) h)
      (fun b hb => by
        match b with
        | ⟨0, _⟩ => rfl
        | ⟨1, _⟩ => exact absurd rfl hb
        | ⟨2, _⟩ => rfl) (by show r.val - 1 + 1 = r.val; omega)).trans ?_
    rw [val_main_v6_apply, val_main_v3_apply, val_main_v5_apply, val_main_v4_apply]
    have el : ∀ k : Fin 768, lidx_main_v3 (ix3 n (⟨r.val - 1, hlt⟩ : Fin 196) h) k = ix3 n (⟨r.val - 1, hlt⟩ : Fin 196) k :=
      fun k => funext fun a => by match a with | ⟨0, _⟩ => rfl | ⟨1, _⟩ => rfl | ⟨2, _⟩ => rfl
    have er : ∀ k : Fin 768, ridx_main_v3 (ix3 n (⟨r.val - 1, hlt⟩ : Fin 196) h) k = ix2 h k :=
      fun k => funext fun a => by match a with | ⟨0, _⟩ => rfl | ⟨1, _⟩ => rfl
    have eb : idx_main_v4 (idx_main_v5 (ix3 n (⟨r.val - 1, hlt⟩ : Fin 196) h)) = ix1 h :=
      funext fun a => by match a with | ⟨0, _⟩ => rfl
    simp only [el, er, eb]
    rfl

end Cert.ReferenceIdeal.RefValue

end
-- ==== Proof.lean ====
/-
  The certificate of the patch-embedding kernel against its reference, over the extended reals.

  Both programs cut every image into 196 patches of 768 numbers, project each patch with the weight matrix
  (`patch · Wᵀ`), add the bias, and put the class token in front as row 0: entry (n, r, h) of the result is
  `cls[h]` for `r = 0` and `∑ d, patches[n, r - 1, d] · W[h, d] + b[h]` otherwise (Proof/Spec.lean). The kernel
  does this sixteen images at a time, with the patches and the weight first changed to a narrower float
  format — the identity on extended reals — and its matrix unit accumulating into zero; the reference does it
  in one general matrix product. No sum is split or regrouped between the two, so no finiteness of the
  inputs is needed.

  The kernel's side: one store's value at an entry (Proof/Tile.lean), the sixteen stores of a grid point as one
  block (Proof/Block.lean), the eight blocks as the whole array and the patch array from the images
  (Proof/Array.lean). The reference's side: its last operation read at an entry (Proof/RefEmbed.lean). Here the
  two runs are set side by side.
-/
import proofs.«141842_j72335839199699_2_alg».proof.Defs
import proofs.«141842_j72335839199699_2_alg».proof.Proof.Gen.Kernel
import proofs.«141842_j72335839199699_2_alg».proof.Proof.Gen.Kernel.Skeleton
import proofs.«141842_j72335839199699_2_alg».proof.Proof.Gen.Kernel.Launch
import proofs.«141842_j72335839199699_2_alg».proof.Proof.Gen.Kernel.Points
import proofs.«141842_j72335839199699_2_alg».proof.Proof.Gen.Kernel.Frame
import proofs.«141842_j72335839199699_2_alg».proof.Proof.Gen.KernelIdeal
import proofs.«141842_j72335839199699_2_alg».proof.Proof.Gen.KernelIdeal.Skeleton
import proofs.«141842_j72335839199699_2_alg».proof.Proof.Gen.KernelIdeal.Launch
import proofs.«141842_j72335839199699_2_alg».proof.Proof.Gen.KernelIdeal.Points
import proofs.«141842_j72335839199699_2_alg».proof.Proof.Gen.KernelIdeal.Frame
import proofs.«141842_j72335839199699_2_alg».proof.Proof.Gen.ReferenceIdeal
import proofs.«141842_j72335839199699_2_alg».proof.Proof.Gen.KernelIdeal.Value
import proofs.«141842_j72335839199699_2_alg».proof.Proof.Gen.ReferenceIdeal.Run
import proofs.«141842_j72335839199699_2_alg».proof.Proof.Gen.ReferenceIdeal.Read
import proofs.«141842_j72335839199699_2_alg».proof.Proof.Gen.Pre_finite_inputs
import proofs.«141842_j72335839199699_2_alg».proof.Proof.Array
import proofs.«141842_j72335839199699_2_alg».proof.Proof.RefEmbed
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- The reference's patch array is the kernel's: the same two reshapes around the same transpose of the images. -/
theorem patches_same (x : (⟨Cert.ReferenceIdeal.S128x3x224x224, .f32⟩ : BufTy).Contents (Elt Ideal)) :
    Cert.ReferenceIdeal.Read.val_main_v2 (F := Ideal) x = Cert.KernelIdeal.RefValue.patches x := rfl

/-- From memories that agree on the four arguments both programs end with the embedding of those arguments
    in their result: the kernel by its blocks (`Cert.KernelIdeal.RefValue.run`), the reference by its last
    operation (`Cert.ReferenceIdeal.RefValue.result_eq`). -/
theorem algebraic : Cert.algebraic_KernelIdeal_ReferenceIdeal := by
  intro m ρ m' ρ' _ hagree
  refine ⟨_, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, patches_same,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
